-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x27 : Shape := ⟨2, ![524288, 27]⟩
abbrev S21x1024x27 : Shape := ⟨3, ![21, 1024, 27]⟩
abbrev S_ : Shape := ⟨0, ![]⟩

class Facts : Prop where
  bcast_S_S524288x27 : S_.BroadcastsInDim S524288x27 (![] : Fin 0 → Fin S524288x27.rank)
  reducesTo_S524288x27_S_d0_1 : S524288x27.ReducesTo [0, 1] S_
  h_S_ : 0 < S_.numel
  bcast_S_S21x1024x27 : S_.BroadcastsInDim S21x1024x27 (![] : Fin 0 → Fin S21x1024x27.rank)
  reducesTo_S21x1024x27_S_d0_1_2 : S21x1024x27.ReducesTo [0, 1, 2] S_

variable [Facts]

def fn {F : FTy → Type} [FloatOps F] (main_arg0 : FVec F S524288x27 .f32) (main_arg1 : FVec F S21x1024x27 .f32) : IVec S_ 1 :=
  let main_v0 : FVec F S524288x27 .f32 := Host.absf main_arg0
  let main_cst : FVec F S_ .f32 := constant S_ .f32 0x7F800000#32
  let main_v1 : FVec F S524288x27 .f32 := broadcastInDim S524288x27 ![] bcast_S_S524288x27 main_cst
  let main_v2 : IVec S524288x27 1 := cmpf .olt main_v0 main_v1
  let main_c : IVec S_ 1 := constantI S_ 1 1#1
  let main_v3 : IVec S_ 1 := (fun x v => Host.reduce IntOp.andi x v reducesTo_S524288x27_S_d0_1 h_S_) main_v2 main_c
  let main_v4 : FVec F S21x1024x27 .f32 := Host.absf main_arg1
  let main_cst_0 : FVec F S_ .f32 := constant S_ .f32 0x7F800000#32
  let main_v5 : FVec F S21x1024x27 .f32 := broadcastInDim S21x1024x27 ![] bcast_S_S21x1024x27 main_cst_0
  let main_v6 : IVec S21x1024x27 1 := cmpf .olt main_v4 main_v5
  let main_c_1 : IVec S_ 1 := constantI S_ 1 1#1
  let main_v7 : IVec S_ 1 := (fun x v => Host.reduce IntOp.andi x v reducesTo_S21x1024x27_S_d0_1_2 h_S_) main_v6 main_c_1
  let main_v8 : IVec S_ 1 := andi main_v3 main_v7
  main_v8
-- ==== Kernel.lean ====
abbrev S524288x27 : Shape := ⟨2, ![524288, 27]⟩
abbrev S21x1024x27 : Shape := ⟨3, ![21, 1024, 27]⟩
abbrev S21 : Shape := ⟨1, ![21]⟩
abbrev S1x21 : Shape := ⟨2, ![1, 21]⟩
abbrev S21x1024x1 : Shape := ⟨3, ![21, 1024, 1]⟩
abbrev S21x1024 : Shape := ⟨2, ![21, 1024]⟩
abbrev S_ : Shape := ⟨0, ![]⟩
abbrev S524288x4 : Shape := ⟨2, ![524288, 4]⟩
abbrev S8192x27 : Shape := ⟨2, ![8192, 27]⟩
abbrev S8192x4 : Shape := ⟨2, ![8192, 4]⟩
abbrev S8192x1 : Shape := ⟨2, ![8192, 1]⟩
abbrev S8192x21 : Shape := ⟨2, ![8192, 21]⟩
abbrev S8192 : Shape := ⟨1, ![8192]⟩

abbrev nBuf : Space → Nat
  | .hbm => 15
  | .vmem => 7
  | .smem => 0
  | _ => 0

abbrev bufTy : (tb : Table) → Fin (tcTables nBuf tb) → BufTy
  | .hbm, ⟨0, _⟩ => ⟨S524288x27, .f32⟩
  | .hbm, ⟨1, _⟩ => ⟨S21x1024x27, .f32⟩
  | .hbm, ⟨2, _⟩ => ⟨S21, .f32⟩
  | .hbm, ⟨3, _⟩ => ⟨S1x21, .f32⟩
  | .hbm, ⟨4, _⟩ => ⟨S21x1024x1, .f32⟩
  | .hbm, ⟨5, _⟩ => ⟨S21x1024, .f32⟩
  | .hbm, ⟨6, _⟩ => ⟨S_, .f32⟩
  | .hbm, ⟨7, _⟩ => ⟨S21, .f32⟩
  | .hbm, ⟨8, _⟩ => ⟨S1x21, .f32⟩
  | .hbm, ⟨9, _⟩ => ⟨S21x1024x1, .f32⟩
  | .hbm, ⟨10, _⟩ => ⟨S21x1024, .f32⟩
  | .hbm, ⟨11, _⟩ => ⟨S_, .f32⟩
  | .hbm, ⟨12, _⟩ => ⟨S21, .f32⟩
  | .hbm, ⟨13, _⟩ => ⟨S1x21, .f32⟩
  | .hbm, ⟨14, _⟩ => ⟨S524288x4, .f32⟩
  | .local _ .vmem, ⟨0, _⟩ => ⟨S8192x27, .f32⟩
  | .local _ .vmem, ⟨1, _⟩ => ⟨S8192x27, .f32⟩
  | .local _ .vmem, ⟨2, _⟩ => ⟨S1x21, .f32⟩
  | .local _ .vmem, ⟨3, _⟩ => ⟨S1x21, .f32⟩
  | .local _ .vmem, ⟨4, _⟩ => ⟨S1x21, .f32⟩
  | .local _ .vmem, ⟨5, _⟩ => ⟨S8192x4, .f32⟩
  | .local _ .vmem, ⟨6, _⟩ => ⟨S8192x4, .f32⟩
  | _, _ => ⟨S524288x27, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x27 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x21 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x21 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S21_S1x21 : S21.ShapeCasts S1x21
  slices_S21x1024x27_S21x1024x1_0_0_0 : S21x1024x27.Slices ![0, 0, 0] S21x1024x1
  shapeCasts_S21x1024x1_S21x1024 : S21x1024x1.ShapeCasts S21x1024
  reducesTo_S21x1024_S21_d1 : S21x1024.ReducesTo [1] S21
  h_S_ : 0 < S_.numel
  slices_S21x1024x27_S21x1024x1_0_0_25 : S21x1024x27.Slices ![0, 0, 25] S21x1024x1
  inb_S8192x27_S8192x1_0_0 : ∀ a, (![0, 0] : Fin 2 → Nat) a + S8192x1.size a ≤ S8192x27.size a
  h_S8192x1 : 0 < S8192x1.numel
  inb_S8192x27_S8192x1_0_25 : ∀ a, (![0, 25] : Fin 2 → Nat) a + S8192x1.size a ≤ S8192x27.size a
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S8192x1_S8192x21 : S8192x1.Broadcasts S8192x21
  broadcasts_S1x21_S8192x21 : S1x21.Broadcasts S8192x21
  reduces_S8192x21_S8192 : S8192x21.Reduces [1] S8192
  shapeCasts_S8192_S8192x1 : S8192.ShapeCasts S8192x1
  inb_S8192x4_S8192x1_0_0 : ∀ a, (![0, 0] : Fin 2 → Nat) a + S8192x1.size a ≤ S8192x4.size a
  inb_S8192x4_S8192x1_0_1 : ∀ a, (![0, 1] : Fin 2 → Nat) a + S8192x1.size a ≤ S8192x4.size a
  inb_S8192x4_S8192x1_0_2 : ∀ a, (![0, 2] : Fin 2 → Nat) a + S8192x1.size a ≤ S8192x4.size a
  inb_S8192x4_S8192x1_0_3 : ∀ a, (![0, 3] : Fin 2 → Nat) a + S8192x1.size a ≤ S8192x4.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x27.size a ≤ S524288x27.size a
  hwx0_0 : ∀ i : grid0.Coords, EltTy.bits .f32 = 32 ∨ (Rect.block (s := S524288x27) S8192x27.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x21.size a ≤ S1x21.size a
  hwx0_1 : ∀ i : grid0.Coords, EltTy.bits .f32 = 32 ∨ (Rect.block (s := S1x21) S1x21.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x21.size a ≤ S1x21.size a
  hwx0_2 : ∀ i : grid0.Coords, EltTy.bits .f32 = 32 ∨ (Rect.block (s := S1x21) S1x21.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x21.size a ≤ S1x21.size a
  hwx0_3 : ∀ i : grid0.Coords, EltTy.bits .f32 = 32 ∨ (Rect.block (s := S1x21) S1x21.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x4.size a ≤ S524288x4.size a
  hwx0_4 : ∀ i : grid0.Coords, EltTy.bits .f32 = 32 ∨ (Rect.block (s := S524288x4) S8192x4.size (cc0_transform_4 i) (hinb0_4 i)).WholeWords (EltTy.packing .f32)

variable [Facts₀]

abbrev win0_0 : Pipeline.Window sig grid0 :=
  Pipeline.Window.ofSpec (Memref.whole main_arg0) S8192x27.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x21.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x21.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x21.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8192x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S524288x27 : Shape := ⟨2, ![524288, 27]⟩
abbrev S21x1024x27 : Shape := ⟨3, ![21, 1024, 27]⟩
abbrev S21 : Shape := ⟨1, ![21]⟩
abbrev S21x1024x1 : Shape := ⟨3, ![21, 1024, 1]⟩
abbrev S21x1024 : Shape := ⟨2, ![21, 1024]⟩
abbrev S_ : Shape := ⟨0, ![]⟩
abbrev S524288x1 : Shape := ⟨2, ![524288, 1]⟩
abbrev S524288 : Shape := ⟨1, ![524288]⟩
abbrev S1x21 : Shape := ⟨2, ![1, 21]⟩
abbrev S524288x21 : Shape := ⟨2, ![524288, 21]⟩
abbrev S524288x4 : Shape := ⟨2, ![524288, 4]⟩

abbrev nBuf : Space → Nat
  | .hbm => 67
  | .vmem => 0
  | .smem => 0
  | _ => 0

abbrev bufTy : (tb : Table) → Fin (tcTables nBuf tb) → BufTy
  | .hbm, ⟨0, _⟩ => ⟨S524288x27, .f32⟩
  | .hbm, ⟨1, _⟩ => ⟨S21x1024x27, .f32⟩
  | .hbm, ⟨2, _⟩ => ⟨S21, .f32⟩
  | .hbm, ⟨3, _⟩ => ⟨S21x1024x1, .f32⟩
  | .hbm, ⟨4, _⟩ => ⟨S21x1024, .f32⟩
  | .hbm, ⟨5, _⟩ => ⟨S_, .f32⟩
  | .hbm, ⟨6, _⟩ => ⟨S21, .f32⟩
  | .hbm, ⟨7, _⟩ => ⟨S21x1024x1, .f32⟩
  | .hbm, ⟨8, _⟩ => ⟨S21x1024, .f32⟩
  | .hbm, ⟨9, _⟩ => ⟨S_, .f32⟩
  | .hbm, ⟨10, _⟩ => ⟨S21, .f32⟩
  | .hbm, ⟨11, _⟩ => ⟨S524288x1, .f32⟩
  | .hbm, ⟨12, _⟩ => ⟨S524288, .f32⟩
  | .hbm, ⟨13, _⟩ => ⟨S524288x1, .f32⟩
  | .hbm, ⟨14, _⟩ => ⟨S1x21, .f32⟩
  | .hbm, ⟨15, _⟩ => ⟨S524288x21, .f32⟩
  | .hbm, ⟨16, _⟩ => ⟨S524288x21, .f32⟩
  | .hbm, ⟨17, _⟩ => ⟨S524288x21, .f32⟩
  | .hbm, ⟨18, _⟩ => ⟨S524288x1, .f32⟩
  | .hbm, ⟨19, _⟩ => ⟨S524288, .f32⟩
  | .hbm, ⟨20, _⟩ => ⟨S524288x1, .f32⟩
  | .hbm, ⟨21, _⟩ => ⟨S1x21, .f32⟩
  | .hbm, ⟨22, _⟩ => ⟨S524288x21, .f32⟩
  | .hbm, ⟨23, _⟩ => ⟨S524288x21, .f32⟩
  | .hbm, ⟨24, _⟩ => ⟨S524288x21, .f32⟩
  | .hbm, ⟨25, _⟩ => ⟨S1x21, .f32⟩
  | .hbm, ⟨26, _⟩ => ⟨S_, .f32⟩
  | .hbm, ⟨27, _⟩ => ⟨S524288x21, .f32⟩
  | .hbm, ⟨28, _⟩ => ⟨S524288x21, .i1⟩
  | .hbm, ⟨29, _⟩ => ⟨S_, .f32⟩
  | .hbm, ⟨30, _⟩ => ⟨S524288x21, .f32⟩
  | .hbm, ⟨31, _⟩ => ⟨S524288x21, .f32⟩
  | .hbm, ⟨32, _⟩ => ⟨S524288x21, .f32⟩
  | .hbm, ⟨33, _⟩ => ⟨S_, .f32⟩
  | .hbm, ⟨34, _⟩ => ⟨S524288, .f32⟩
  | .hbm, ⟨35, _⟩ => ⟨S_, .f32⟩
  | .hbm, ⟨36, _⟩ => ⟨S524288x21, .f32⟩
  | .hbm, ⟨37, _⟩ => ⟨S524288x21, .i1⟩
  | .hbm, ⟨38, _⟩ => ⟨S_, .f32⟩
  | .hbm, ⟨39, _⟩ => ⟨S524288x21, .f32⟩
  | .hbm, ⟨40, _⟩ => ⟨S524288x21, .f32⟩
  | .hbm, ⟨41, _⟩ => ⟨S524288x21, .f32⟩
  | .hbm, ⟨42, _⟩ => ⟨S_, .f32⟩
  | .hbm, ⟨43, _⟩ => ⟨S524288, .f32⟩
  | .hbm, ⟨44, _⟩ => ⟨S_, .f32⟩
  | .hbm, ⟨45, _⟩ => ⟨S524288x21, .f32⟩
  | .hbm, ⟨46, _⟩ => ⟨S524288x21, .i1⟩
  | .hbm, ⟨47, _⟩ => ⟨S_, .f32⟩
  | .hbm, ⟨48, _⟩ => ⟨S524288x21, .f32⟩
  | .hbm, ⟨49, _⟩ => ⟨S524288x21, .f32⟩
  | .hbm, ⟨50, _⟩ => ⟨S524288x21, .f32⟩
  | .hbm, ⟨51, _⟩ => ⟨S_, .f32⟩
  | .hbm, ⟨52, _⟩ => ⟨S524288, .f32⟩
  | .hbm, ⟨53, _⟩ => ⟨S_, .f32⟩
  | .hbm, ⟨54, _⟩ => ⟨S524288x21, .f32⟩
  | .hbm, ⟨55, _⟩ => ⟨S524288x21, .i1⟩
  | .hbm, ⟨56, _⟩ => ⟨S_, .f32⟩
  | .hbm, ⟨57, _⟩ => ⟨S524288x21, .f32⟩
  | .hbm, ⟨58, _⟩ => ⟨S524288x21, .f32⟩
  | .hbm, ⟨59, _⟩ => ⟨S524288x21, .f32⟩
  | .hbm, ⟨60, _⟩ => ⟨S_, .f32⟩
  | .hbm, ⟨61, _⟩ => ⟨S524288, .f32⟩
  | .hbm, ⟨62, _⟩ => ⟨S524288x1, .f32⟩
  | .hbm, ⟨63, _⟩ => ⟨S524288x1, .f32⟩
  | .hbm, ⟨64, _⟩ => ⟨S524288x1, .f32⟩
  | .hbm, ⟨65, _⟩ => ⟨S524288x1, .f32⟩
  | .hbm, ⟨66, _⟩ => ⟨S524288x4, .f32⟩
  | _, _ => ⟨S524288x27, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_call1_v0 : Ref sig .tc := ⟨.hbm, 39, rfl⟩
abbrev main_call1_v1 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_call2_v0 : Ref sig .tc := ⟨.hbm, 48, rfl⟩
abbrev main_call2_v1 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_call3_v0 : Ref sig .tc := ⟨.hbm, 57, rfl⟩
abbrev main_call3_v1 : Ref sig .tc := ⟨.hbm, 58, rfl⟩
abbrev main_v35 : Ref sig .tc := ⟨.hbm, 59, rfl⟩
abbrev main_cst_13 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]

class Facts₀ : Prop where
  slices_S21x1024x27_S21x1024x1_0_0_0 : S21x1024x27.Slices ![0, 0, 0] S21x1024x1
  shapeCasts_S21x1024x1_S21x1024 : S21x1024x1.ShapeCasts S21x1024
  reducesTo_S21x1024_S21_d1 : S21x1024.ReducesTo [1] S21
  h_S_ : 0 < S_.numel
  slices_S21x1024x27_S21x1024x1_0_0_25 : S21x1024x27.Slices ![0, 0, 25] S21x1024x1
  slices_S524288x27_S524288x1_0_0 : S524288x27.Slices ![0, 0] S524288x1
  shapeCasts_S524288x1_S524288 : S524288x1.ShapeCasts S524288
  bcast_S524288_S524288x1_0 : S524288.BroadcastsInDim S524288x1 (![0] : Fin 1 → Fin S524288x1.rank)
  bcast_S21_S1x21_1 : S21.BroadcastsInDim S1x21 (![1] : Fin 1 → Fin S1x21.rank)
  bcast_S524288x1_S524288x21_0_1 : S524288x1.BroadcastsInDim S524288x21 (![0, 1] : Fin 2 → Fin S524288x21.rank)
  bcast_S1x21_S524288x21_0_1 : S1x21.BroadcastsInDim S524288x21 (![0, 1] : Fin 2 → Fin S524288x21.rank)
  slices_S524288x27_S524288x1_0_25 : S524288x27.Slices ![0, 25] S524288x1
  bcast_S_S524288x21 : S_.BroadcastsInDim S524288x21 (![] : Fin 0 → Fin S524288x21.rank)
  reducesTo_S524288x21_S524288_d1 : S524288x21.ReducesTo [1] S524288
  concatenates_S524288x1_S524288x1_S524288x1_S524288x1_S524288x4_d1 : Shape.Concatenates [S524288x1, S524288x1, S524288x1, S524288x1] S524288x4 1

variable [Facts₀]

class Facts : Prop extends Facts₀ where

variable [Facts]
-- ==== Proof.HitSpec.lean ====
/-
  The function both programs compute, stated once, over the extended reals.

  Inputs: `x : [M, 27]`, `d : [21, 1024, 27]` and a weight vector `w : [21]`. For each `k < 21` let
  `lo k = min_j d[k, j, 0]` and `hi k = max_j d[k, j, 25]` (folds from +∞ and from −∞ over the 1024 middle indices).
  Entry `(r, c)` of the result is a MASKED SUM over `k` of the weights:

    c = 0 :  Σ_k [ x[r, 0]  + lo k <  −1 ] · w k        c = 2 :  Σ_k [ x[r, 25] + hi k = 1 ] · w k
    c = 1 :  Σ_k [ x[r, 0]  + lo k =  −1 ] · w k        c = 3 :  Σ_k [ x[r, 25] + hi k > 1 ] · w k

  where `[P] · w` is `w` if `P` holds and the zero word's value otherwise (a select, not a product: no arithmetic on
  `w` is involved, so nothing here needs the inputs to be finite). The thresholds and the zero are kept as the bit
  patterns both programs print; the same word on both sides is never evaluated.
-/
import Idealize.ShloMosaic.PureOps.Ideal
import Idealize.ShloMosaic.Lib.ValueIdx

noncomputable section

open scoped BigOperators

namespace Cert.HitSpec

open Idealize.ShloMosaic Idealize.ShloMosaic.ValueIdx

/-- The masked sum: over `k < 21`, the weight `w k` where `a + e k` stands in the relation `p` to the threshold word's
    value, and the zero word's value elsewhere. -/
def maskedSum (p : CmpFPredicate) (thr : BitVec 32) (a : Ideal .f32) (e w : Fin 21 → Ideal .f32) : Ideal .f32 :=
  ∑ k : Fin 21, Scalar.select (FloatOps.cmpf (F := Ideal) (φ := .f32) p (a + e k) (Ideal.ofBits .f32 thr)) (w k)
    (Ideal.ofBits .f32 0x00000000#32)

/-- Entry `(r, c)` of the result for a matrix `x` of any number of rows `M` (a block of rows or the whole array), given
    the two offset vectors and the weights: columns 0 and 1 compare `x[r, 0] + lo` with −1 (less, equal), columns 2 and 3
    compare `x[r, 25] + hi` with 1 (equal, greater). -/
def entry {M : Nat} (x : FVec Ideal ⟨2, ![M, 27]⟩ .f32) (lo hi w : Fin 21 → Ideal .f32) (r : Fin M) : Fin 4 → Ideal .f32
  | ⟨0, _⟩ => maskedSum .olt 0xBF800000#32 (x (ix2 r (0 : Fin 27))) lo w
  | ⟨1, _⟩ => maskedSum .oeq 0xBF800000#32 (x (ix2 r (0 : Fin 27))) lo w
  | ⟨2, _⟩ => maskedSum .oeq 0x3F800000#32 (x (ix2 r (25 : Fin 27))) hi w
  | ⟨3, _⟩ => maskedSum .ogt 0x3F800000#32 (x (ix2 r (25 : Fin 27))) hi w

/-- `lo`: for each `k`, the fold of `min` from the word `0x7F800000` (+∞) over column 0 of `d[k]`, as the host's
    slice, flattening and reduction spell it. -/
def colMin (d : FVec Ideal ⟨3, ![21, 1024, 27]⟩ .f32) : FVec Ideal ⟨1, ![21]⟩ .f32 :=
  Host.reduce (axes := [1]) (FloatOps.minimumf (F := Ideal) (φ := .f32))
    (shapeCast ⟨2, ![21, 1024]⟩ (extractStridedSlice ⟨3, ![21, 1024, 1]⟩ ![0, 0, 0] d (by decide)) (by decide))
    (constant (F := Ideal) ⟨0, ![]⟩ .f32 0x7F800000#32) (by decide) (by decide)

/-- `hi`: for each `k`, the fold of `max` from the word `0xFF800000` (−∞) over column 25 of `d[k]`. -/
def colMax (d : FVec Ideal ⟨3, ![21, 1024, 27]⟩ .f32) : FVec Ideal ⟨1, ![21]⟩ .f32 :=
  Host.reduce (axes := [1]) (FloatOps.maximumf (F := Ideal) (φ := .f32))
    (shapeCast ⟨2, ![21, 1024]⟩ (extractStridedSlice ⟨3, ![21, 1024, 1]⟩ ![0, 0, 25] d (by decide)) (by decide))
    (constant (F := Ideal) ⟨0, ![]⟩ .f32 0xFF800000#32) (by decide) (by decide)

/-- THE RESULT as one function of the argument arrays and the weight vector, index by index. -/
def G (x : FVec Ideal ⟨2, ![524288, 27]⟩ .f32) (d : FVec Ideal ⟨3, ![21, 1024, 27]⟩ .f32) (w : FVec Ideal ⟨1, ![21]⟩ .f32) :
    FVec Ideal ⟨2, ![524288, 4]⟩ .f32 :=
  fun i => entry x (fun k => colMin d (ix1 k)) (fun k => colMax d (ix1 k)) (fun k => w (ix1 k)) (i 0) (i 1)

/-- `G` at an index written by coordinates. -/
theorem G_apply (x : FVec Ideal ⟨2, ![524288, 27]⟩ .f32) (d : FVec Ideal ⟨3, ![21, 1024, 27]⟩ .f32)
    (w : FVec Ideal ⟨1, ![21]⟩ .f32) (r : Fin 524288) (c : Fin 4) :
    G x d w (ix2 r c) = entry x (fun k => colMin d (ix1 k)) (fun k => colMax d (ix1 k)) (fun k => w (ix1 k)) r c := rfl

end Cert.HitSpec

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibRowSums.lean ====
/-
  Row sums of a matrix and the layout operations around them, read at an index — general in the extents.

  A sum along axis 1 of an `[a, b]` matrix is, at row `r`, the sum over `k < b` of the entries `(r, k)`. A kernel takes
  it as a lane reduction (its accumulator the neutral zero, which the reading drops) and casts the `[a]` result to an
  `[a, 1]` column; a host program takes it as a reduce from an initial value and lays the result out as a column by a
  broadcast along axis 0. Beside them, the host's broadcasts of a vector to a one-row matrix and of a column across the
  columns, each read at an index with both indices written out by coordinates.
-/
import Idealize.ShloMosaic.Lib.ValueLayout
import Idealize.ShloMosaic.Lib.IdealHost
import Idealize.ShloMosaic.PureOps.Ideal.Laws
import proofs.«167057_j10582799418093_2_alg».proof.Proof.LibColumns

open scoped BigOperators

namespace Cert.LibRowSums

open Idealize.ShloMosaic Idealize.ShloMosaic.ValueIdx

section Layout
variable {α : Type}

/-- An `[a]` vector broadcast along axis 0 to an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A `[b]` vector broadcast along axis 1 to a `[1, b]` row reads, at `(u, k)`, the vector at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- An `[a, 1]` column broadcast across `b` columns reads, at `(p, c)`, the column's entry at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

end Layout

/-- The source index a sum along axis 1 inserts over row `r` at coordinate `k` is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A KERNEL'S ROW SUM kept as a column: the lane reduction along axis 1 of an `[a, b]` matrix, cast from `[a]` to
    `[a, 1]`, reads at `(r, u)` the sum over `k < b` of the entries `(r, k)`. -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  rw [Cert.LibColumns.shapeCast_a_a1_apply]
  refine (Ideal.multiReduction_add_single src acc h hφ hacc (ix1 r)).trans ?_
  show (∑ k : Fin b, src (h.lift (ix1 r) k)) = _
  exact Finset.sum_congr rfl fun k _ => congrArg src (lift_row h r k)

/-- A HOST PROGRAM'S ROW SUM laid out as a column: the reduce with `add` along axis 1 from an initial value, broadcast
    along axis 0 to `[a, 1]`, reads at `(r, v)` the initial value plus the sum over `k < b` of the entries `(r, k)`. -/
theorem hostRowSum_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩)
    (hb : (⟨1, ![a]⟩ : Shape).BroadcastsInDim ⟨2, ![a, 1]⟩ ![0]) (r : Fin a) (v : Fin 1) :
    broadcastInDim ⟨2, ![a, 1]⟩ ![0] hb (Host.reduceAdd (F := Ideal) src init h' hu) (ix2 r v)
      = init (Shape.Idx.first hu) + ∑ k : Fin b, src (ix2 r k) := by
  rw [broadcastInDim_a_a1_apply, hostReduceAdd_apply, Ideal.hostReduceAdd_single h' h]
  show _ + (∑ k : Fin b, src (h.lift (ix1 r) k)) = _
  exact congrArg _ (Finset.sum_congr rfl fun k _ => congrArg src (lift_row h r k))

end Cert.LibRowSums
-- ==== Proof.BlockValue.lean ====
/-
  What the kernel's body leaves in its output block, as a function of its input blocks, at the ideal values.

  At a grid point the body holds an [8192, 27] block `x0` of rows of `x` and three [1, 21] rows `x1`, `x2`, `x3` (the two
  offset vectors and the weights). It forms `x0[:, 0] + x1` and `x0[:, 25] + x2` as [8192, 21] matrices (a column
  broadcast across the columns plus a row broadcast down the rows), and stores four [8192, 1] columns, each the lane sum
  along axis 1, kept as a column, of a select between the broadcast weights and a splat zero under a comparison with a
  splat threshold. Each stored column, read at `(r, 0)`, is the specification's masked sum (the lane sum's accumulator
  is the neutral zero, which the reading drops); the four stores tile the [8192, 4] block by columns, so the block at
  `(r, c)` is the specification's `entry` of the input blocks at `(r, c)`.
-/
import proofs.«167057_j10582799418093_2_alg».proof.Proof.Gen.KernelIdeal.Frame
import proofs.«167057_j10582799418093_2_alg».proof.Proof.HitSpec
import proofs.«167057_j10582799418093_2_alg».proof.Proof.LibRowSums

noncomputable section

open scoped BigOperators

namespace Cert.KernelIdeal.BlockValue

open Cert.KernelIdeal Cert.KernelIdeal.Gen Idealize.ShloMosaic Idealize.ShloMosaic.ValueIdx Cert.HitSpec Cert.LibRowSums

/-! ## One stored column at an index -/

/-- A column broadcast across 21 columns plus a row (through its identity cast) broadcast down 8192 rows, at `(r, k)`. -/
theorem shiftedBlock_apply (v : FVec Ideal S8192x1 .f32) (e : FVec Ideal S1x21 .f32) (r : Fin 8192) (k : Fin 21) :
    addf (broadcastTo S8192x21 v broadcasts_S8192x1_S8192x21)
        (broadcastTo S8192x21 (shapeCast S1x21 e shapeCasts_S1x21_S1x21) broadcasts_S1x21_S8192x21) (ix2 r k)
      = v (ix2 r (0 : Fin 1)) + e (ix2 (0 : Fin 1) k) := by
  rw [addf_apply, Cert.LibColumns.broadcastTo_a1_ab_apply, broadcastTo_1b_ab_apply, shapeCast_self]

/-- THE SHAPE ALL FOUR PAYLOADS SHARE: the lane sum along axis 1, kept as a column, of the row `W` broadcast down the
    rows where `A` stands in relation `p` to a splat threshold and a splat zero elsewhere — at `(r, u)` the masked sum
    over `k`, once `A` is read at `(r, k)` as `a + e k`. -/
theorem maskedLane_apply (p : CmpFPredicate) (thr : BitVec 32) (A : FVec Ideal S8192x21 .f32) (W : FVec Ideal S1x21 .f32)
    (hφ : FKind.Formats .f32) (hacc : (0x00000000#32 : BitVec 32) = FKind.add.neutral .f32 hφ) (r : Fin 8192) (u : Fin 1)
    (a : Ideal .f32) (e : Fin 21 → Ideal .f32) (hA : ∀ k : Fin 21, A (ix2 r k) = a + e k) :
    shapeCast S8192x1 (multiReduction .add [1] S8192
        (select (cmpf (F := Ideal) p A (broadcast S8192x21 (Scalar.ofBits (F := Ideal) .f32 thr)))
          (broadcastTo S8192x21 W broadcasts_S1x21_S8192x21)
          (broadcast S8192x21 (Scalar.ofBits (F := Ideal) .f32 0x00000000#32)))
        0x00000000#32 reduces_S8192x21_S8192 hφ hacc) shapeCasts_S8192_S8192x1 (ix2 r u)
      = maskedSum p thr a e (fun k => W (ix2 (0 : Fin 1) k)) := by
  refine (laneSum_apply _ _ reduces_S8192x21_S8192 hφ hacc shapeCasts_S8192_S8192x1 r u).trans ?_
  unfold maskedSum
  refine Finset.sum_congr rfl fun k _ => ?_
  rw [select_apply, cmpf_apply, hA k, broadcast_apply, broadcast_apply, broadcastTo_1b_ab_apply]
  rfl

/-- The weights row as the payloads spell it (two identity casts) is the loaded row. -/
theorem weightsRow_eq (v6 : FVec Ideal S1x21 .f32) : shapeCast S1x21 (k0_pay2 v6) shapeCasts_S1x21_S1x21 = v6 := by
  unfold k0_pay2
  rw [shapeCast_self, shapeCast_self]

/-- Stored column 0: the weights where `x0[r, 0] + x1 k < −1`. -/
theorem pay5_apply (v0 : FVec Ideal S8192x1 .f32) (v2 v6 : FVec Ideal S1x21 .f32) (r : Fin 8192) (u : Fin 1) :
    k0_pay5 v0 v2 v6 (ix2 r u)
      = maskedSum .olt 0xBF800000#32 (v0 (ix2 r (0 : Fin 1))) (fun k => v2 (ix2 (0 : Fin 1) k)) (fun k => v6 (ix2 (0 : Fin 1) k)) := by
  refine (maskedLane_apply .olt 0xBF800000#32 (k0_pay3 v0 v2) (shapeCast S1x21 (k0_pay2 v6) shapeCasts_S1x21_S1x21) (.inl rfl) rfl r u
    (v0 (ix2 r (0 : Fin 1))) (fun k => v2 (ix2 (0 : Fin 1) k)) (fun k => shiftedBlock_apply v0 v2 r k)).trans ?_
  rw [weightsRow_eq]

/-- Stored column 1: the weights where `x0[r, 0] + x1 k = −1`. -/
theorem pay6_apply (v0 : FVec Ideal S8192x1 .f32) (v2 v6 : FVec Ideal S1x21 .f32) (r : Fin 8192) (u : Fin 1) :
    k0_pay6 v0 v2 v6 (ix2 r u)
      = maskedSum .oeq 0xBF800000#32 (v0 (ix2 r (0 : Fin 1))) (fun k => v2 (ix2 (0 : Fin 1) k)) (fun k => v6 (ix2 (0 : Fin 1) k)) := by
  refine (maskedLane_apply .oeq 0xBF800000#32 (k0_pay3 v0 v2) (shapeCast S1x21 (k0_pay2 v6) shapeCasts_S1x21_S1x21) (.inl rfl) rfl r u
    (v0 (ix2 r (0 : Fin 1))) (fun k => v2 (ix2 (0 : Fin 1) k)) (fun k => shiftedBlock_apply v0 v2 r k)).trans ?_
  rw [weightsRow_eq]

/-- Stored column 2: the weights where `x0[r, 25] + x2 k = 1`. -/
theorem pay7_apply (v1 : FVec Ideal S8192x1 .f32) (v4 v6 : FVec Ideal S1x21 .f32) (r : Fin 8192) (u : Fin 1) :
    k0_pay7 v1 v4 v6 (ix2 r u)
      = maskedSum .oeq 0x3F800000#32 (v1 (ix2 r (0 : Fin 1))) (fun k => v4 (ix2 (0 : Fin 1) k)) (fun k => v6 (ix2 (0 : Fin 1) k)) := by
  refine (maskedLane_apply .oeq 0x3F800000#32 (k0_pay4 v1 v4) (shapeCast S1x21 (k0_pay2 v6) shapeCasts_S1x21_S1x21) (.inl rfl) rfl r u
    (v1 (ix2 r (0 : Fin 1))) (fun k => v4 (ix2 (0 : Fin 1) k)) (fun k => shiftedBlock_apply v1 v4 r k)).trans ?_
  rw [weightsRow_eq]

/-- Stored column 3: the weights where `x0[r, 25] + x2 k > 1`. -/
theorem pay1_apply (v1 : FVec Ideal S8192x1 .f32) (v4 v6 : FVec Ideal S1x21 .f32) (r : Fin 8192) (u : Fin 1) :
    k0_pay1 (k0_pay2 v6) (k0_pay4 v1 v4) (k0_pay8 (F := Ideal)) (ix2 r u)
      = maskedSum .ogt 0x3F800000#32 (v1 (ix2 r (0 : Fin 1))) (fun k => v4 (ix2 (0 : Fin 1) k)) (fun k => v6 (ix2 (0 : Fin 1) k)) := by
  refine (maskedLane_apply .ogt 0x3F800000#32 (k0_pay4 v1 v4) (shapeCast S1x21 (k0_pay2 v6) shapeCasts_S1x21_S1x21) (.inl rfl) rfl r u
    (v1 (ix2 r (0 : Fin 1))) (fun k => v4 (ix2 (0 : Fin 1) k)) (fun k => shiftedBlock_apply v1 v4 r k)).trans ?_
  rw [weightsRow_eq]

/-! ## The block -/

/-- A one-column rectangle at column `c` of an `[n, m]` block places its local index `(r, u)` at `(r, c)`. -/
theorem colRect_emb {n m : Nat} (c : Nat) (hc : c < m)
    (inb : ∀ a, (![0, c] : Fin 2 → Nat) a + (![n, 1] : Fin 2 → Nat) a ≤ (⟨2, ![n, m]⟩ : Shape).size a) (r : Fin n) (u : Fin 1) :
    (Rect.unit (s := ⟨2, ![n, m]⟩) ![0, c] ![n, 1] inb).emb (ix2 r u) = ix2 r (⟨c, hc⟩ : Fin m) := by
  funext a
  apply Fin.ext
  match a with
  | ⟨0, _⟩ => show 0 + 1 * r.val = r.val; omega
  | ⟨1, _⟩ => show c + 1 * u.val = c; have := u.isLt; omega

theorem hz : (![0, 0] : Fin 2 → Nat) = fun _ => 0 := funext fun a => by fin_cases a <;> rfl

/-- THE OUTPUT BLOCK after the body, at `(r, c)`: the specification's entry of the input blocks. -/
theorem out_block (x0 : FVec Ideal S8192x27 .f32) (x1 x2 x3 : FVec Ideal S1x21 .f32) (r : Fin 8192) (c : Fin 4) :
    out0_4 (F := Ideal) x0 x1 x2 x3 (ix2 r c)
      = entry x0 (fun k => x1 (ix2 (0 : Fin 1) k)) (fun k => x2 (ix2 (0 : Fin 1) k)) (fun k => x3 (ix2 (0 : Fin 1) k)) r c := by
  unfold out0_4
  refine View.canon_apply_of_pieces (Val := Elt Ideal) (e := .f32)
    (fun y : S8192x4.Idx => entry x0 (fun k => x1 (ix2 (0 : Fin 1) k)) (fun k => x2 (ix2 (0 : Fin 1) k))
      (fun k => x3 (ix2 (0 : Fin 1) k)) (y 0) (y 1))
    _ ?_ (ix2 r c) (cover0_4 _ _ _ _ (ix2 r c))
  intro p hp x
  simp only [List.mem_cons, List.mem_singleton, List.not_mem_nil, or_false] at hp
  rcases hp with rfl | rfl | rfl | rfl
  all_goals (obtain ⟨q, u, rfl⟩ : ∃ (q : Fin 8192) (u : Fin 1), x = ix2 q u := ⟨x 0, x 1, eq_ix2 x⟩)
  · show k0_pay1 (k0_pay2 (View.ld x3 r0_2)) (k0_pay4 (View.ld x0 r0_1) (View.ld x2 r0_2)) (k0_pay8 (F := Ideal)) (ix2 q u)
        = entry x0 _ _ _ ((r0_6.emb (ix2 q u)) 0) ((r0_6.emb (ix2 q u)) 1)
    rw [colRect_emb 3 (by omega) inb_S8192x4_S8192x1_0_3 q u, pay1_apply, View.ld_unit_zero hz, View.ld_unit_zero hz]
    show maskedSum _ _ (x0 (r0_1.emb (ix2 q (0 : Fin 1)))) _ _ = maskedSum _ _ (x0 (ix2 q (25 : Fin 27))) _ _
    rw [colRect_emb 25 (by omega) inb_S8192x27_S8192x1_0_25 q 0]
    rfl
  · show k0_pay7 (View.ld x0 r0_1) (View.ld x2 r0_2) (View.ld x3 r0_2) (ix2 q u)
        = entry x0 _ _ _ ((r0_5.emb (ix2 q u)) 0) ((r0_5.emb (ix2 q u)) 1)
    rw [colRect_emb 2 (by omega) inb_S8192x4_S8192x1_0_2 q u, pay7_apply, View.ld_unit_zero hz, View.ld_unit_zero hz]
    show maskedSum _ _ (x0 (r0_1.emb (ix2 q (0 : Fin 1)))) _ _ = maskedSum _ _ (x0 (ix2 q (25 : Fin 27))) _ _
    rw [colRect_emb 25 (by omega) inb_S8192x27_S8192x1_0_25 q 0]
    rfl
  · show k0_pay6 (View.ld x0 r0_0) (View.ld x1 r0_2) (View.ld x3 r0_2) (ix2 q u)
        = entry x0 _ _ _ ((r0_4.emb (ix2 q u)) 0) ((r0_4.emb (ix2 q u)) 1)
    rw [colRect_emb 1 (by omega) inb_S8192x4_S8192x1_0_1 q u, pay6_apply, View.ld_unit_zero hz, View.ld_unit_zero hz]
    show maskedSum _ _ (x0 (r0_0.emb (ix2 q (0 : Fin 1)))) _ _ = maskedSum _ _ (x0 (ix2 q (0 : Fin 27))) _ _
    rw [colRect_emb 0 (by omega) inb_S8192x27_S8192x1_0_0 q 0]
    rfl
  · show k0_pay5 (View.ld x0 r0_0) (View.ld x1 r0_2) (View.ld x3 r0_2) (ix2 q u)
        = entry x0 _ _ _ ((r0_3.emb (ix2 q u)) 0) ((r0_3.emb (ix2 q u)) 1)
    rw [colRect_emb 0 (by omega) inb_S8192x4_S8192x1_0_0 q u, pay5_apply, View.ld_unit_zero hz, View.ld_unit_zero hz]
    show maskedSum _ _ (x0 (r0_0.emb (ix2 q (0 : Fin 1)))) _ _ = maskedSum _ _ (x0 (ix2 q (0 : Fin 27))) _ _
    rw [colRect_emb 0 (by omega) inb_S8192x27_S8192x1_0_0 q 0]
    rfl

end Cert.KernelIdeal.BlockValue

end
-- ==== Proof.ArrayValue.lean ====
/-
  From the blocks to the whole array: what the kernel's result buffer holds after its run, at the ideal values.

  Before the region the host operations leave, as [1, 21] rows, the two offset vectors (the specification's `colMin` and
  `colMax` of the second argument, each through a cast from [21]) and the weight vector; the region's 64 grid points each
  take block `t` of 8192 rows of `x` with those three rows whole, and write back block `t` of 8192 rows of the
  [524288, 4] result. The body's block at local `(q, c)` is the specification's entry of the input blocks
  (`BlockValue.out_block`); the input block's row `q` is row `t·8192 + q` of `x`; so what point `t` writes back is block
  `t` of the one function `G`. Row `r` lies in the block of point `r / 8192`, so the blocks cover the array and it ends
  holding `G`.
-/
import proofs.«167057_j10582799418093_2_alg».proof.Proof.Gen.KernelIdeal.Value
import proofs.«167057_j10582799418093_2_alg».proof.Proof.BlockValue
import Idealize.ShloMosaic.Lib.Pipeline.Value
import Idealize.ShloMosaic.Lib.StableHlo.Run
import Idealize.ShloMosaic.Lib.ValueLayout

noncomputable section

namespace Cert.KernelIdeal.ArrayValue

open Cert.KernelIdeal Cert.KernelIdeal.Gen Idealize.ShloMosaic Idealize.ShloMosaic.TcCoe Idealize.SL.Sem
open Idealize.ShloMosaic.StableHlo Idealize.ShloMosaic.ValueIdx Cert.HitSpec Cert.KernelIdeal.BlockValue
open Idealize.ShloMosaic.Pipeline (Dat)

variable (m : (ℓ : Loc nD τ sig) → Buf (Elt Ideal) ℓ) (ρ : Dev nD → PrngReg)

/-- The kernel program's weight vector: its constant table read row-major. -/
def weights : FVec Ideal S21 .f32 := fun i => FloatOps.ofBits .f32 (lit0 (S21.rowMajor i))

/-! ## What the region finds in the three row buffers -/

/-- The first offset row: the minimum vector of the second argument, cast to [1, 21]. -/
theorem V_lo (c : Dev nD) :
    (V m c main_v4 : S1x21.Idx → Ideal .f32)
      = shapeCast S1x21 (colMin (m ((c : Thread nD τ).loc main_arg1))) shapeCasts_S21_S1x21 := by
  dsimp only [Gen.V, Gen.hostOps0]
  after_results
  rfl

/-- The second offset row: the maximum vector of the second argument, cast to [1, 21]. -/
theorem V_hi (c : Dev nD) :
    (V m c main_v8 : S1x21.Idx → Ideal .f32)
      = shapeCast S1x21 (colMax (m ((c : Thread nD τ).loc main_arg1))) shapeCasts_S21_S1x21 := by
  dsimp only [Gen.V, Gen.hostOps0]
  after_results
  rfl

/-- The weights row: the weight vector cast to [1, 21]. -/
theorem V_w (c : Dev nD) :
    (V m c main_v0 : S1x21.Idx → Ideal .f32) = shapeCast S1x21 weights shapeCasts_S21_S1x21 := by
  dsimp only [Gen.V, Gen.hostOps0]
  after_results
  rfl

/-! ## The windows' blocks at a point -/

/-- The printed index maps over the grid: the row-blocked windows (the first operand and the result) are at block `t`,
    the three row windows at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `q` of the first operand's block at point `t` is row `t·8192 + q` of the first argument. -/
theorem iblk0_apply (c : Dev nD) (t : Fin cfg0.N) (q : Fin 8192) (j : Fin 27) (R : Fin 524288)
    (hR : R.val = t.val * 8192 + q.val) :
    iblk m c 0 t (ix2 q j) = m ((c : Thread nD τ).loc main_arg0) (ix2 R j) := by
  obtain ⟨e0, e1, -⟩ := idx_facts t
  show V m c main_arg0 (((cfg0.win 0).blk t).view.emb (ix2 q j)) = _
  rw [V_main_arg0]
  refine congrArg _ (funext fun a => Fin.ext ?_)
  match a with
  | ⟨0, _⟩ => show win0_0.index t (0 : Fin 2) * 8192 + 1 * q.val = R.val; omega
  | ⟨1, _⟩ => show win0_0.index t (1 : Fin 2) * 27 + 1 * j.val = j.val; omega

/-- The first offset row's block, whole at every point, reads the minimum vector. -/
theorem iblk1_apply (c : Dev nD) (t : Fin cfg0.N) (k : Fin 21) :
    iblk m c 1 t (ix2 (0 : Fin 1) k) = colMin (m ((c : Thread nD τ).loc main_arg1)) (ix1 k) := by
  obtain ⟨-, -, e0, e1, -⟩ := idx_facts t
  show V m c main_v4 (((cfg0.win 1).blk t).view.emb (ix2 (0 : Fin 1) k)) = _
  have he : ((cfg0.win 1).blk t).view.emb (ix2 (0 : Fin 1) k) = ix2 (0 : Fin 1) k := funext fun a => Fin.ext (by
    match a with
    | ⟨0, _⟩ => show win0_1.index t (0 : Fin 2) * 1 + 1 * 0 = 0; omega
    | ⟨1, _⟩ => show win0_1.index t (1 : Fin 2) * 21 + 1 * k.val = k.val; omega)
  rw [he, V_lo, shapeCast_a_1a_apply]

/-- The second offset row's block reads the maximum vector. -/
theorem iblk2_apply (c : Dev nD) (t : Fin cfg0.N) (k : Fin 21) :
    iblk m c 2 t (ix2 (0 : Fin 1) k) = colMax (m ((c : Thread nD τ).loc main_arg1)) (ix1 k) := by
  obtain ⟨-, -, -, -, e0, e1, -⟩ := idx_facts t
  show V m c main_v8 (((cfg0.win 2).blk t).view.emb (ix2 (0 : Fin 1) k)) = _
  have he : ((cfg0.win 2).blk t).view.emb (ix2 (0 : Fin 1) k) = ix2 (0 : Fin 1) k := funext fun a => Fin.ext (by
    match a with
    | ⟨0, _⟩ => show win0_2.index t (0 : Fin 2) * 1 + 1 * 0 = 0; omega
    | ⟨1, _⟩ => show win0_2.index t (1 : Fin 2) * 21 + 1 * k.val = k.val; omega)
  rw [he, V_hi, shapeCast_a_1a_apply]

/-- The weights row's block reads the weight vector. -/
theorem iblk3_apply (c : Dev nD) (t : Fin cfg0.N) (k : Fin 21) :
    iblk m c 3 t (ix2 (0 : Fin 1) k) = weights (ix1 k) := by
  obtain ⟨-, -, -, -, -, -, e0, e1, -⟩ := idx_facts t
  show V m c main_v0 (((cfg0.win 3).blk t).view.emb (ix2 (0 : Fin 1) k)) = _
  have he : ((cfg0.win 3).blk t).view.emb (ix2 (0 : Fin 1) k) = ix2 (0 : Fin 1) k := funext fun a => Fin.ext (by
    match a with
    | ⟨0, _⟩ => show win0_3.index t (0 : Fin 2) * 1 + 1 * 0 = 0; omega
    | ⟨1, _⟩ => show win0_3.index t (1 : Fin 2) * 21 + 1 * k.val = k.val; omega)
  rw [he, V_w, shapeCast_a_1a_apply]

/-! ## What a point writes back is its block of `G` -/

/-- The body's output block at point `t`, local index `(q, cc)`, is `G` of the arguments at row `t·8192 + q`. -/
theorem block_is_G (c : Dev nD) (t : Fin cfg0.N) (q : Fin 8192) (cc : Fin 4) (R : Fin 524288)
    (hR : R.val = t.val * 8192 + q.val) :
    out0_4 (F := Ideal) (iblk m c 0 t) (iblk m c 1 t) (iblk m c 2 t) (iblk m c 3 t) (ix2 q cc)
      = G (m ((c : Thread nD τ).loc main_arg0)) (m ((c : Thread nD τ).loc main_arg1)) weights (ix2 R cc) := by
  rw [out_block, G_apply]
  simp only [iblk1_apply, iblk2_apply, iblk3_apply]
  match cc with
  | ⟨0, _⟩ =>
    show maskedSum _ _ (iblk m c 0 t (ix2 q (0 : Fin 27))) _ _ = maskedSum _ _ (m ((c : Thread nD τ).loc main_arg0) (ix2 R (0 : Fin 27))) _ _
    rw [iblk0_apply m c t q 0 R hR]
  | ⟨1, _⟩ =>
    show maskedSum _ _ (iblk m c 0 t (ix2 q (0 : Fin 27))) _ _ = maskedSum _ _ (m ((c : Thread nD τ).loc main_arg0) (ix2 R (0 : Fin 27))) _ _
    rw [iblk0_apply m c t q 0 R hR]
  | ⟨2, _⟩ =>
    show maskedSum _ _ (iblk m c 0 t (ix2 q (25 : Fin 27))) _ _ = maskedSum _ _ (m ((c : Thread nD τ).loc main_arg0) (ix2 R (25 : Fin 27))) _ _
    rw [iblk0_apply m c t q 25 R hR]
  | ⟨3, _⟩ =>
    show maskedSum _ _ (iblk m c 0 t (ix2 q (25 : Fin 27))) _ _ = maskedSum _ _ (m ((c : Thread nD τ).loc main_arg0) (ix2 R (25 : Fin 27))) _ _
    rw [iblk0_apply m c t q 25 R hR]

/-- WHAT POINT `t` WRITES BACK is block `t` of `G` of the arguments. -/
theorem flushed_eq (c : Dev nD) (t : Fin cfg0.N) :
    (dats m 0 c).flushed 4 t
      = ((cfg0.win 4).blk t).view.read (Elt Ideal)
          (G (m ((c : Thread nD τ).loc main_arg0)) (m ((c : Thread nD τ).loc main_arg1)) weights) := by
  rw [Value.flushed4]
  have ht : t.val < 64 := N_0 ▸ t.isLt
  obtain ⟨-, -, -, -, -, -, -, -, e8, e9⟩ := idx_facts t
  funext y
  revert y
  show ∀ y : S8192x4.Idx, out0_4 (F := Ideal) (iblk m c 0 t) (iblk m c 1 t) (iblk m c 2 t) (iblk m c 3 t) y
      = G (m ((c : Thread nD τ).loc main_arg0)) (m ((c : Thread nD τ).loc main_arg1)) weights (((cfg0.win 4).blk t).view.emb y)
  intro y
  obtain ⟨q, cc, rfl⟩ : ∃ (q : Fin 8192) (cc : Fin 4), y = ix2 q cc := ⟨y 0, y 1, eq_ix2 y⟩
  have hq : q.val < 8192 := q.isLt
  have hemb : ((cfg0.win 4).blk t).view.emb (ix2 q cc)
      = ix2 (⟨t.val * 8192 + q.val, by omega⟩ : Fin 524288) cc := funext fun a => Fin.ext (by
    match a with
    | ⟨0, _⟩ => show win0_4.index t (0 : Fin 2) * 8192 + 1 * q.val = t.val * 8192 + q.val; omega
    | ⟨1, _⟩ => show win0_4.index t (1 : Fin 2) * 4 + 1 * cc.val = cc.val; omega)
  rw [hemb]
  exact block_is_G m c t q cc _ rfl

/-! ## The blocks cover the array -/

/-- An index of the result array is in point `t`'s block iff each coordinate is in the block's range on its axis. -/
theorem mem_blk (t : Fin cfg0.N) (i : S524288x4.Idx) :
    i ∈ ((cfg0.win 4).blk t).view.set ↔ ∀ a : Fin 2, win0_4.index t a * S8192x4.size a ≤ (i a).val
      ∧ (i a).val < win0_4.index t a * S8192x4.size a + S8192x4.size a := by
  show i ∈ ((View.whole main_v9).slice (win0_4.rect t)).set ↔ _
  rw [View.set_slice_whole, Rect.mem_set_unit]
  exact Iff.rfl

/-- Row `r` of the result lies in the block of point `r / 8192`. -/
theorem cover (i : S524288x4.Idx) :
    ∃ t : Fin cfg0.N, (cfg0.win 4).flush t = true ∧ i ∈ ((cfg0.win 4).blk t).view.set := by
  have hi0 : (i 0).val < 524288 := (i 0).isLt
  have hi1 : (i 1).val < 4 := (i 1).isLt
  obtain ⟨t, ht⟩ : ∃ t : Fin cfg0.N, t.val = (i 0).val / 8192 := ⟨⟨(i 0).val / 8192, by rw [show cfg0.N = 64 from N_0]; omega⟩, rfl⟩
  obtain ⟨-, -, -, -, -, -, -, -, e8, e9⟩ := idx_facts t
  refine ⟨t, flush0_4 t, ?_⟩
  rw [mem_blk]
  intro a
  match a with
  | ⟨0, _⟩ =>
    show win0_4.index t (0 : Fin 2) * 8192 ≤ (i 0).val ∧ (i 0).val < win0_4.index t (0 : Fin 2) * 8192 + 8192
    omega
  | ⟨1, _⟩ =>
    show win0_4.index t (1 : Fin 2) * 4 ≤ (i 1).val ∧ (i 1).val < win0_4.index t (1 : Fin 2) * 4 + 4
    omega

/-! ## The array, and the run -/

/-- THE RESULT ARRAY after the run is `G` of the argument arrays. -/
theorem final (c : Dev nD) :
    (dats m 0 c).arrAt 4 cfg0.N
      = G (m ((c : Thread nD τ).loc main_arg0)) (m ((c : Thread nD τ).loc main_arg1)) weights :=
  (dats m 0 c).arrAt_eq_of_cover 4 _ (fun t _ => flushed_eq m c t) cover

/-- THE KERNEL'S RUN: every weakly fair execution terminates with the result at `G` of the arguments' launch contents
    and the arguments unchanged. -/
theorem run : θ_run defs (onTc (τ := τ) (main (F := Ideal))) ⟨m, fun _ => 0, ρ⟩ fun r => ∀ c : Dev nD,
      r.2.mem ((c : Thread nD τ).loc main_v9)
          = G (m ((c : Thread nD τ).loc main_arg0)) (m ((c : Thread nD τ).loc main_arg1)) weights
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefRun.lean ====
/-
  The reference program's @main read as a straight line of host operations, and what every buffer holds after it.

  From `x : [524288, 27]` and `d : [21, 1024, 27]` the reference computes: for each of the 21 leading indices of `d`
  the minimum over the middle axis of column 0 and the maximum over the middle axis of column 25; the arrays
  `a[r, k] = x[r, 0] + min_k` and `b[r, k] = x[r, 25] + max_k` of shape [524288, 21]; four masked sums over `k` of a
  constant weight vector `w : [21]` (the terms where `a < -1`, `a = -1`, `b = 1`, `b > 1`; elsewhere zero), each mask
  applied by the outlined function `_where` (two broadcasts and a select); and the four sums as the four columns of
  the [524288, 4] result.

  `ops` lists @main's operations in order, each call of `_where` replaced by the callee's three operations over that
  call's own buffers; `main_eq` says @main IS that line, and `run_main` that every execution of it terminates with
  each buffer at the line's fold over the launch contents.
-/
import proofs.«167057_j10582799418093_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: the weight vector; columns 0 and 25 of `d` sliced, flattened to [21, 1024] and reduced
    along the second axis (minimum from +∞, maximum from −∞); columns 0 and 25 of `x` as [524288, 1] columns,
    broadcast against the reduced rows and added; then, four times, a threshold broadcast, a comparison, `_where`'s
    three operations (the weights' broadcast, the zero's, the select) and the sum along the second axis from zero; last
    the four sums as [524288, 1] columns, concatenated along axis 1. -/
abbrev ops : List (HloOp τ sig (Elt F)) :=
  [ nullary main_cst (fun i => FloatOps.ofBits .f32 (lit0 (S21.rowMajor i))),
    unary main_arg1 main_v0 (extractStridedSlice S21x1024x1 ![0, 0, 0] · slices_S21x1024x27_S21x1024x1_0_0_0),
    reshape main_v0 main_v1 rfl shapeCasts_S21x1024x1_S21x1024,
    nullary main_cst_0 (constant S_ .f32 0x7F800000#32),
    binary main_v1 main_cst_0 main_v2 (fun x v => Host.reduce FloatOps.minimumf x v reducesTo_S21x1024_S21_d1 h_S_),
    unary main_arg1 main_v3 (extractStridedSlice S21x1024x1 ![0, 0, 25] · slices_S21x1024x27_S21x1024x1_0_0_25),
    reshape main_v3 main_v4 rfl shapeCasts_S21x1024x1_S21x1024,
    nullary main_cst_1 (constant S_ .f32 0xFF800000#32),
    binary main_v4 main_cst_1 main_v5 (fun x v => Host.reduce FloatOps.maximumf x v reducesTo_S21x1024_S21_d1 h_S_),
    unary main_arg0 main_v6 (extractStridedSlice S524288x1 ![0, 0] · slices_S524288x27_S524288x1_0_0),
    reshape main_v6 main_v7 rfl shapeCasts_S524288x1_S524288,
    unary main_v7 main_v8 (broadcastInDim S524288x1 ![0] bcast_S524288_S524288x1_0),
    unary main_v2 main_v9 (broadcastInDim S1x21 ![1] bcast_S21_S1x21_1),
    unary main_v8 main_v10 (broadcastInDim S524288x21 ![0, 1] bcast_S524288x1_S524288x21_0_1),
    unary main_v9 main_v11 (broadcastInDim S524288x21 ![0, 1] bcast_S1x21_S524288x21_0_1),
    binary main_v10 main_v11 main_v12 addf,
    unary main_arg0 main_v13 (extractStridedSlice S524288x1 ![0, 25] · slices_S524288x27_S524288x1_0_25),
    reshape main_v13 main_v14 rfl shapeCasts_S524288x1_S524288,
    unary main_v14 main_v15 (broadcastInDim S524288x1 ![0] bcast_S524288_S524288x1_0),
    unary main_v5 main_v16 (broadcastInDim S1x21 ![1] bcast_S21_S1x21_1),
    unary main_v15 main_v17 (broadcastInDim S524288x21 ![0, 1] bcast_S524288x1_S524288x21_0_1),
    unary main_v16 main_v18 (broadcastInDim S524288x21 ![0, 1] bcast_S1x21_S524288x21_0_1),
    binary main_v17 main_v18 main_v19 addf,
    unary main_cst main_v20 (broadcastInDim S1x21 ![1] bcast_S21_S1x21_1),
    nullary main_cst_2 (constant S_ .f32 0xBF800000#32),
    unary main_cst_2 main_v21 (broadcastInDim S524288x21 ![] bcast_S_S524288x21),
    binary main_v12 main_v21 main_v22 (cmpf .olt),
    nullary main_cst_3 (constant S_ .f32 0x00000000#32),
    TRef.unary (.of main_v20 : TRef sig ⟨S1x21, .f32⟩) main_call0.v0 (broadcastInDim S524288x21 ![0, 1] bcast_S1x21_S524288x21_0_1),
    TRef.unary (.of main_cst_3 : TRef sig ⟨S_, .f32⟩) main_call0.v1 (broadcastInDim S524288x21 ![] bcast_S_S524288x21),
    TRef.ternary (.of main_v22 : TRef sig ⟨S524288x21, .i1⟩) main_call0.v0 main_call0.v1 main_call0.v2 select,
    nullary main_cst_4 (constant S_ .f32 0x00000000#32),
    binary main_v23 main_cst_4 main_v24 (fun x v => Host.reduceAdd x v reducesTo_S524288x21_S524288_d1 h_S_),
    nullary main_cst_5 (constant S_ .f32 0xBF800000#32),
    unary main_cst_5 main_v25 (broadcastInDim S524288x21 ![] bcast_S_S524288x21),
    binary main_v12 main_v25 main_v26 (cmpf .oeq),
    nullary main_cst_6 (constant S_ .f32 0x00000000#32),
    TRef.unary (.of main_v20 : TRef sig ⟨S1x21, .f32⟩) main_call1.v0 (broadcastInDim S524288x21 ![0, 1] bcast_S1x21_S524288x21_0_1),
    TRef.unary (.of main_cst_6 : TRef sig ⟨S_, .f32⟩) main_call1.v1 (broadcastInDim S524288x21 ![] bcast_S_S524288x21),
    TRef.ternary (.of main_v26 : TRef sig ⟨S524288x21, .i1⟩) main_call1.v0 main_call1.v1 main_call1.v2 select,
    nullary main_cst_7 (constant S_ .f32 0x00000000#32),
    binary main_v27 main_cst_7 main_v28 (fun x v => Host.reduceAdd x v reducesTo_S524288x21_S524288_d1 h_S_),
    nullary main_cst_8 (constant S_ .f32 0x3F800000#32),
    unary main_cst_8 main_v29 (broadcastInDim S524288x21 ![] bcast_S_S524288x21),
    binary main_v19 main_v29 main_v30 (cmpf .oeq),
    nullary main_cst_9 (constant S_ .f32 0x00000000#32),
    TRef.unary (.of main_v20 : TRef sig ⟨S1x21, .f32⟩) main_call2.v0 (broadcastInDim S524288x21 ![0, 1] bcast_S1x21_S524288x21_0_1),
    TRef.unary (.of main_cst_9 : TRef sig ⟨S_, .f32⟩) main_call2.v1 (broadcastInDim S524288x21 ![] bcast_S_S524288x21),
    TRef.ternary (.of main_v30 : TRef sig ⟨S524288x21, .i1⟩) main_call2.v0 main_call2.v1 main_call2.v2 select,
    nullary main_cst_10 (constant S_ .f32 0x00000000#32),
    binary main_v31 main_cst_10 main_v32 (fun x v => Host.reduceAdd x v reducesTo_S524288x21_S524288_d1 h_S_),
    nullary main_cst_11 (constant S_ .f32 0x3F800000#32),
    unary main_cst_11 main_v33 (broadcastInDim S524288x21 ![] bcast_S_S524288x21),
    binary main_v19 main_v33 main_v34 (cmpf .ogt),
    nullary main_cst_12 (constant S_ .f32 0x00000000#32),
    TRef.unary (.of main_v20 : TRef sig ⟨S1x21, .f32⟩) main_call3.v0 (broadcastInDim S524288x21 ![0, 1] bcast_S1x21_S524288x21_0_1),
    TRef.unary (.of main_cst_12 : TRef sig ⟨S_, .f32⟩) main_call3.v1 (broadcastInDim S524288x21 ![] bcast_S_S524288x21),
    TRef.ternary (.of main_v34 : TRef sig ⟨S524288x21, .i1⟩) main_call3.v0 main_call3.v1 main_call3.v2 select,
    nullary main_cst_13 (constant S_ .f32 0x00000000#32),
    binary main_v35 main_cst_13 main_v36 (fun x v => Host.reduceAdd x v reducesTo_S524288x21_S524288_d1 h_S_),
    unary main_v24 main_v37 (broadcastInDim S524288x1 ![0] bcast_S524288_S524288x1_0),
    unary main_v28 main_v38 (broadcastInDim S524288x1 ![0] bcast_S524288_S524288x1_0),
    unary main_v32 main_v39 (broadcastInDim S524288x1 ![0] bcast_S524288_S524288x1_0),
    unary main_v36 main_v40 (broadcastInDim S524288x1 ![0] bcast_S524288_S524288x1_0),
    nary ![main_v37, main_v38, main_v39, main_v40] main_v41 (fun u => concatenate S524288x4 1
      [⟨S524288x1, u 0⟩, ⟨S524288x1, u 1⟩, ⟨S524288x1, u 2⟩, ⟨S524288x1, u 3⟩]
      concatenates_S524288x1_S524288x1_S524288x1_S524288x1_S524288x4_d1) ]

set_option maxRecDepth 2048 in
/-- @main is that straight line: `_where`'s definition unfolded at its four calls and the call records at their
    fields, both sides are one chain of `hlo` steps once sequencing is reassociated. -/
theorem main_eq (c : Dev nD) : main (F := F) c = seq ops := by
  simp only [main, fn_where.body, seq, bind_assoc, pure_bind]
  rfl

/-- The reference scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., reshape_bufs_sub .., nullary_bufs_sub .., binary_bufs_sub ..,
    unary_bufs_sub .., reshape_bufs_sub .., nullary_bufs_sub .., binary_bufs_sub ..,
    unary_bufs_sub .., reshape_bufs_sub .., unary_bufs_sub .., unary_bufs_sub .., unary_bufs_sub .., unary_bufs_sub .., binary_bufs_sub ..,
    unary_bufs_sub .., reshape_bufs_sub .., unary_bufs_sub .., unary_bufs_sub .., unary_bufs_sub .., unary_bufs_sub .., binary_bufs_sub ..,
    unary_bufs_sub ..,
    nullary_bufs_sub .., unary_bufs_sub .., binary_bufs_sub .., nullary_bufs_sub .., unary_bufs_sub .., unary_bufs_sub .., ternary_bufs_sub ..,
    nullary_bufs_sub .., binary_bufs_sub ..,
    nullary_bufs_sub .., unary_bufs_sub .., binary_bufs_sub .., nullary_bufs_sub .., unary_bufs_sub .., unary_bufs_sub .., ternary_bufs_sub ..,
    nullary_bufs_sub .., binary_bufs_sub ..,
    nullary_bufs_sub .., unary_bufs_sub .., binary_bufs_sub .., nullary_bufs_sub .., unary_bufs_sub .., unary_bufs_sub .., ternary_bufs_sub ..,
    nullary_bufs_sub .., binary_bufs_sub ..,
    nullary_bufs_sub .., unary_bufs_sub .., binary_bufs_sub .., nullary_bufs_sub .., unary_bufs_sub .., unary_bufs_sub .., ternary_bufs_sub ..,
    nullary_bufs_sub .., binary_bufs_sub ..,
    unary_bufs_sub .., unary_bufs_sub .., unary_bufs_sub .., unary_bufs_sub .., nary_bufs_sub ..⟩

/-- From any memory with zero counters, every weakly fair execution of @main terminates, and every final state has
    each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  What the reference's result buffer holds after its run, and each of its four columns read at an index.

  `out x d` is the reference's composed term: four columns, each a row sum (from zero, laid out as a [524288, 1]
  column) of a select between the broadcast weights and a broadcast zero under a comparison of
  `x[:, j] + e` (column `j` of `x` broadcast across 21 columns, plus an offset vector `e` broadcast down the rows) with a
  broadcast threshold; concatenated along axis 1. The offset vectors are the specification's own `colMin d` and
  `colMax d` — the reference spells them with exactly those operations — so they are never opened here.

  Read at `(r, c)`: the concatenation picks column `c` at `(r, 0)`; the column is `0 + Σ_k` of the select at `(r, k)`;
  the select's condition compares `x[r, j] + e k` with the threshold, its branches are `w k` and the zero word's value.
  That is the masked sum of the specification, and `0 + s = s` is the only arithmetic used.
-/
import proofs.«167057_j10582799418093_2_alg».proof.Proof.RefRun
import proofs.«167057_j10582799418093_2_alg».proof.Proof.HitSpec
import proofs.«167057_j10582799418093_2_alg».proof.Proof.LibRowSums
import Idealize.ShloMosaic.Lib.KernelVsHost
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx Cert.HitSpec Cert.LibRowSums

/-- The reference's weight vector: its constant table read row-major. -/
def weights : FVec Ideal S21 .f32 := fun i => FloatOps.ofBits .f32 (lit0 (S21.rowMajor i))

/-- Column `o` of `x` as a [524288, 1] column: sliced, flattened, broadcast back along axis 0. -/
def col (x : FVec Ideal S524288x27 .f32) (o : Nat) (hs : S524288x27.Slices ![0, o] S524288x1) : FVec Ideal S524288x1 .f32 :=
  broadcastInDim S524288x1 ![0] bcast_S524288_S524288x1_0
    (shapeCast S524288 (extractStridedSlice S524288x1 ![0, o] x hs) shapeCasts_S524288x1_S524288)

/-- `x[:, o] + e` as a [524288, 21] matrix: the column broadcast across the columns plus the vector broadcast down the rows. -/
def shifted (x : FVec Ideal S524288x27 .f32) (o : Nat) (hs : S524288x27.Slices ![0, o] S524288x1) (e : FVec Ideal S21 .f32) :
    FVec Ideal S524288x21 .f32 :=
  addf (broadcastInDim S524288x21 ![0, 1] bcast_S524288x1_S524288x21_0_1 (col x o hs))
    (broadcastInDim S524288x21 ![0, 1] bcast_S1x21_S524288x21_0_1 (broadcastInDim S1x21 ![1] bcast_S21_S1x21_1 e))

/-- One result column: the row sums, from zero, of the weights selected where `A` stands in relation `p` to the threshold. -/
def maskedCol (p : CmpFPredicate) (thr : BitVec 32) (A : FVec Ideal S524288x21 .f32) (w : FVec Ideal S21 .f32) :
    FVec Ideal S524288x1 .f32 :=
  broadcastInDim S524288x1 ![0] bcast_S524288_S524288x1_0
    (Host.reduceAdd (F := Ideal)
      (select (cmpf (F := Ideal) p A (broadcastInDim S524288x21 ![] bcast_S_S524288x21 (constant (F := Ideal) S_ .f32 thr)))
        (broadcastInDim S524288x21 ![0, 1] bcast_S1x21_S524288x21_0_1 (broadcastInDim S1x21 ![1] bcast_S21_S1x21_1 w))
        (broadcastInDim S524288x21 ![] bcast_S_S524288x21 (constant (F := Ideal) S_ .f32 0x00000000#32)))
      (constant (F := Ideal) S_ .f32 0x00000000#32) reducesTo_S524288x21_S524288_d1 h_S_)

/-- The reference's result as a term of its two arguments. -/
def out (x : FVec Ideal S524288x27 .f32) (d : FVec Ideal S21x1024x27 .f32) : FVec Ideal S524288x4 .f32 :=
  concatenate S524288x4 1
    [⟨S524288x1, maskedCol .olt 0xBF800000#32 (shifted x 0 slices_S524288x27_S524288x1_0_0 (colMin d)) weights⟩,
     ⟨S524288x1, maskedCol .oeq 0xBF800000#32 (shifted x 0 slices_S524288x27_S524288x1_0_0 (colMin d)) weights⟩,
     ⟨S524288x1, maskedCol .oeq 0x3F800000#32 (shifted x 25 slices_S524288x27_S524288x1_0_25 (colMax d)) weights⟩,
     ⟨S524288x1, maskedCol .ogt 0x3F800000#32 (shifted x 25 slices_S524288x27_S524288x1_0_25 (colMax d)) weights⟩]
    concatenates_S524288x1_S524288x1_S524288x1_S524288x1_S524288x4_d1

/-! ## The run's fold at the result buffer is `out` of the arguments -/

attribute [local irreducible] Host.reduce Host.reduceAdd concatenate extractStridedSlice broadcastInDim shapeCast in
set_option maxRecDepth 8192 in
set_option maxHeartbeats 800000 in
/-- The fold unrolled, each operation's result decides whether the buffer read is the one it writes, and the typed
    references' casts are the identity at these literal references: all of it definitional. The reductions, the
    concatenation and the layout operations are kept folded meanwhile (the equation never looks inside them). -/
theorem out_eq (V : Valuation τ sig (Elt Ideal)) :
    after (RefRun.ops (F := Ideal)) V (main_v41 : DevRef τ sig)
      = out (V (main_arg0 : DevRef τ sig)) (V (main_arg1 : DevRef τ sig)) := by
  simp only [after_cons, after_nil]
  rfl

/-- No operation writes the first argument … -/
theorem arg0_eq (V : Valuation τ sig (Elt Ideal)) :
    after (RefRun.ops (F := Ideal)) V (main_arg0 : DevRef τ sig) = V (main_arg0 : DevRef τ sig) := by
  simp only [after_cons, after_nil]
  rfl

/-- … nor the second. -/
theorem arg1_eq (V : Valuation τ sig (Elt Ideal)) :
    after (RefRun.ops (F := Ideal)) V (main_arg1 : DevRef τ sig) = V (main_arg1 : DevRef τ sig) := by
  simp only [after_cons, after_nil]
  rfl

/-- THE REFERENCE'S RUN: every weakly fair execution terminates with the result at `out` of the arguments' launch
    contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v41).trans (out_eq _), (h c main_arg0).trans (arg0_eq _),
      (h c main_arg1).trans (arg1_eq _)⟩)
    (RefRun.run_main m ρ)

/-! ## `out` is the specification, index by index -/

/-- Column `o` of `x` as a [524288, 1] column reads, at `(r, v)`, entry `(r, o)` of `x`. -/
theorem col_apply (x : FVec Ideal S524288x27 .f32) (o : Nat) (hs : S524288x27.Slices ![0, o] S524288x1) (j : Fin 27)
    (hj : j.val = o + (0 : Fin 1).val) (r : Fin 524288) (v : Fin 1) : col x o hs (ix2 r v) = x (ix2 r j) := by
  unfold col
  rw [broadcastInDim_a_a1_apply, Cert.LibColumns.shapeCast_a1_a_apply]
  exact slice2_axis1_apply o x hs r (0 : Fin 1) j hj

/-- `x[:, o] + e` at `(r, k)` is `x[r, o] + e k`. -/
theorem shifted_apply (x : FVec Ideal S524288x27 .f32) (o : Nat) (hs : S524288x27.Slices ![0, o] S524288x1) (j : Fin 27)
    (hj : j.val = o + (0 : Fin 1).val) (e : FVec Ideal S21 .f32) (r : Fin 524288) (k : Fin 21) :
    shifted x o hs e (ix2 r k) = x (ix2 r j) + e (ix1 k) := by
  unfold shifted
  rw [addf_apply, broadcastInDim_a1_ab_apply, col_apply x o hs j hj, broadcastInDim_oneRow_apply, broadcastInDim_b_1b_apply]

/-- ONE COLUMN of the reference's result at `(r, v)` is the specification's masked sum. -/
theorem maskedCol_apply (p : CmpFPredicate) (thr : BitVec 32) (x : FVec Ideal S524288x27 .f32) (o : Nat)
    (hs : S524288x27.Slices ![0, o] S524288x1) (j : Fin 27) (hj : j.val = o + (0 : Fin 1).val) (e w : FVec Ideal S21 .f32)
    (r : Fin 524288) (v : Fin 1) :
    maskedCol p thr (shifted x o hs e) w (ix2 r v)
      = maskedSum p thr (x (ix2 r j)) (fun k => e (ix1 k)) (fun k => w (ix1 k)) := by
  unfold maskedCol
  rw [hostRowSum_apply _ _ _ _ (by decide), constant_apply, Ideal.ofBits_zero_f32, zero_add]
  unfold maskedSum
  refine Finset.sum_congr rfl fun k _ => ?_
  rw [select_apply, cmpf_apply, shifted_apply x o hs j hj, broadcastInDim_scalar_apply, constant_apply,
    broadcastInDim_oneRow_apply, broadcastInDim_b_1b_apply, broadcastInDim_scalar_apply, constant_apply]

end Cert.ReferenceIdeal.RefValue

end
-- ==== Proof.RefSpec.lean ====
/-
  The reference's result is the specification `G`, index by index.

  The result is four [524288, 1] columns concatenated along axis 1, so at `(r, c)` it reads column `c` at `(r, 0)`
  (each earlier column has extent 1 along the axis, so column `c` starts at coordinate `c`); and column `c` at `(r, 0)` is
  the specification's masked sum for that column (`RefValue.maskedCol_apply`).
-/
import proofs.«167057_j10582799418093_2_alg».proof.Proof.RefValue

noncomputable section

namespace Cert.ReferenceIdeal.RefSpec

open Cert.ReferenceIdeal Cert.ReferenceIdeal.Gen Idealize.ShloMosaic Idealize.ShloMosaic.ValueIdx
open Cert.HitSpec Cert.ReferenceIdeal.RefValue

/-- Off the concatenation axis, the column's index `(r, 0)` and the result's index `(r, c)` have the same coordinate. -/
theorem off_axis (r : Fin 524288) (cc : Fin 4) (b : Fin S524288x1.rank)
    (hb : b.cast (rfl : S524288x1.rank = S524288x4.rank) ≠ (1 : Fin 2)) :
    ((ix2 r (0 : Fin 1) : S524288x1.Idx) b).val = ((ix2 r cc : S524288x4.Idx) (b.cast rfl)).val := by
  match b with
  | ⟨0, _⟩ => rfl
  | ⟨1, _⟩ => exact absurd rfl hb

/-- Four [524288, 1] columns concatenated along axis 1 read, at `(r, c)`, column `c` at `(r, 0)`. -/
theorem concat4_apply (A0 A1 A2 A3 : FVec Ideal S524288x1 .f32) (r : Fin 524288) (c : Fin 4) :
    concatenate S524288x4 1 [⟨S524288x1, A0⟩, ⟨S524288x1, A1⟩, ⟨S524288x1, A2⟩, ⟨S524288x1, A3⟩]
        concatenates_S524288x1_S524288x1_S524288x1_S524288x1_S524288x4_d1 (ix2 r c)
      = (match c with | ⟨0, _⟩ => A0 | ⟨1, _⟩ => A1 | ⟨2, _⟩ => A2 | ⟨3, _⟩ => A3) (ix2 r (0 : Fin 1)) := by
  match c with
  | ⟨0, _⟩ =>
    exact concatenate_apply_piece (α := Ideal .f32) (t := S524288x4) (1 : Fin 2)
      [⟨S524288x1, A0⟩, ⟨S524288x1, A1⟩, ⟨S524288x1, A2⟩, ⟨S524288x1, A3⟩]
      concatenates_S524288x1_S524288x1_S524288x1_S524288x1_S524288x4_d1 (ix2 r (⟨0, by omega⟩ : Fin 4)) 0 (by show 0 < 4; omega)
      S524288x1 A0 rfl rfl 0 rfl (ix2 r (0 : Fin 1)) (off_axis r _) rfl
  | ⟨1, _⟩ =>
    exact concatenate_apply_piece (α := Ideal .f32) (t := S524288x4) (1 : Fin 2)
      [⟨S524288x1, A0⟩, ⟨S524288x1, A1⟩, ⟨S524288x1, A2⟩, ⟨S524288x1, A3⟩]
      concatenates_S524288x1_S524288x1_S524288x1_S524288x1_S524288x4_d1 (ix2 r (⟨1, by omega⟩ : Fin 4)) 1 (by show 1 < 4; omega)
      S524288x1 A1 rfl rfl 1 rfl (ix2 r (0 : Fin 1)) (off_axis r _) rfl
  | ⟨2, _⟩ =>
    exact concatenate_apply_piece (α := Ideal .f32) (t := S524288x4) (1 : Fin 2)
      [⟨S524288x1, A0⟩, ⟨S524288x1, A1⟩, ⟨S524288x1, A2⟩, ⟨S524288x1, A3⟩]
      concatenates_S524288x1_S524288x1_S524288x1_S524288x1_S524288x4_d1 (ix2 r (⟨2, by omega⟩ : Fin 4)) 2 (by show 2 < 4; omega)
      S524288x1 A2 rfl rfl 2 rfl (ix2 r (0 : Fin 1)) (off_axis r _) rfl
  | ⟨3, _⟩ =>
    exact concatenate_apply_piece (α := Ideal .f32) (t := S524288x4) (1 : Fin 2)
      [⟨S524288x1, A0⟩, ⟨S524288x1, A1⟩, ⟨S524288x1, A2⟩, ⟨S524288x1, A3⟩]
      concatenates_S524288x1_S524288x1_S524288x1_S524288x1_S524288x4_d1 (ix2 r (⟨3, by omega⟩ : Fin 4)) 3 (by show 3 < 4; omega)
      S524288x1 A3 rfl rfl 3 rfl (ix2 r (0 : Fin 1)) (off_axis r _) rfl

/-- THE REFERENCE IS THE SPECIFICATION: `out x d` is `G x d` at the reference's weights. -/
theorem out_is_G (x : FVec Ideal S524288x27 .f32) (d : FVec Ideal S21x1024x27 .f32) : out x d = G x d weights := by
  funext i
  obtain ⟨r, c, rfl⟩ : ∃ (r : Fin 524288) (c : Fin 4), i = ix2 r c := ⟨i 0, i 1, eq_ix2 i⟩
  rw [G_apply]
  unfold out
  rw [concat4_apply]
  match c with
  | ⟨0, _⟩ => exact maskedCol_apply .olt _ x 0 _ (0 : Fin 27) rfl _ _ r 0
  | ⟨1, _⟩ => exact maskedCol_apply .oeq _ x 0 _ (0 : Fin 27) rfl _ _ r 0
  | ⟨2, _⟩ => exact maskedCol_apply .oeq _ x 25 _ (25 : Fin 27) rfl _ _ r 0
  | ⟨3, _⟩ => exact maskedCol_apply .ogt _ x 25 _ (25 : Fin 27) rfl _ _ r 0

end Cert.ReferenceIdeal.RefSpec

end
-- ==== Proof.lean ====
/-
  The kernel and its reference compute the same [524288, 4] array over the extended reals.

  Both programs take `x : [524288, 27]` and `d : [21, 1024, 27]`. Both first reduce `d` to two vectors of length 21,
  `lo k = min_j d[k, j, 0]` and `hi k = max_j d[k, j, 25]`, by the same host operations (a slice, a flattening and a
  reduction from ±∞), and both carry the same constant weight vector `w` of 21 words. Entry `(r, c)` of the result is a
  masked sum over `k` of `w k`: where `x[r, 0] + lo k < −1` (c = 0), `= −1` (c = 1), where `x[r, 25] + hi k = 1` (c = 2),
  `> 1` (c = 3); the terms elsewhere are the zero word's value (`Proof/HitSpec.lean`: `G`).

  The kernel computes it block by block: 64 grid points, each holding 8192 rows of `x` and the three vectors as
  [1, 21] rows, each storing four columns of lane sums (`Proof/BlockValue.lean`); its blocks tile the result, so the
  result array is `G` (`Proof/ArrayValue.lean`). The reference computes it on whole arrays: broadcasts, four selects
  through an outlined function, four row sums from zero, a concatenation (`Proof/RefRun.lean`, its run;
  `Proof/RefValue.lean`, its term; `Proof/RefSpec.lean`, that the term is `G`). The two sides differ only in how a row sum is spelt — a lane reduction
  whose neutral accumulator the reading drops, against a reduce that adds an initial zero — and in layout; `0 + s = s`
  is the only arithmetic fact used, which holds at the infinities too, so the precondition (finite inputs) is never
  opened. The idealization rewrote no operation of the kernel, so there is nothing to preserve.
-/
import proofs.«167057_j10582799418093_2_alg».proof.Defs
import proofs.«167057_j10582799418093_2_alg».proof.Proof.Gen.Kernel
import proofs.«167057_j10582799418093_2_alg».proof.Proof.Gen.Kernel.Skeleton
import proofs.«167057_j10582799418093_2_alg».proof.Proof.Gen.Kernel.Launch
import proofs.«167057_j10582799418093_2_alg».proof.Proof.Gen.Kernel.Points
import proofs.«167057_j10582799418093_2_alg».proof.Proof.Gen.Kernel.Frame
import proofs.«167057_j10582799418093_2_alg».proof.Proof.Gen.KernelIdeal
import proofs.«167057_j10582799418093_2_alg».proof.Proof.Gen.KernelIdeal.Skeleton
import proofs.«167057_j10582799418093_2_alg».proof.Proof.Gen.KernelIdeal.Launch
import proofs.«167057_j10582799418093_2_alg».proof.Proof.Gen.KernelIdeal.Points
import proofs.«167057_j10582799418093_2_alg».proof.Proof.Gen.KernelIdeal.Frame
import proofs.«167057_j10582799418093_2_alg».proof.Proof.Gen.KernelIdeal.Value
import proofs.«167057_j10582799418093_2_alg».proof.Proof.Gen.ReferenceIdeal
import proofs.«167057_j10582799418093_2_alg».proof.Proof.Gen.Pre_finite_inputs
import proofs.«167057_j10582799418093_2_alg».proof.Proof.ArrayValue
import proofs.«167057_j10582799418093_2_alg».proof.Proof.RefValue
import proofs.«167057_j10582799418093_2_alg».proof.Proof.RefSpec
import Idealize.ShloMosaic.Adequacy
import Idealize.ShloMosaic.Init

noncomputable section

namespace Cert.Proof

open Idealize.ShloMosaic Idealize.SL.Sem

/-- The two programs print the same table of 21 weight words … -/
theorem lit_eq : ∀ k : Fin 21, Cert.KernelIdeal.lit0 k = Cert.ReferenceIdeal.lit0 k := by decide

/-- … so their weight vectors are one vector. -/
theorem weights_eq : Cert.KernelIdeal.ArrayValue.weights = Cert.ReferenceIdeal.RefValue.weights :=
  funext fun i => congrArg (FloatOps.ofBits (F := Ideal) .f32) (lit_eq _)

/-- The kernel as printed runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- At the ideal values the kernel's result array ends at `G` of its arguments and the reference's at its composed term
    of arguments that agree with them: that term is `G` too, at the same weights. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2, Cert.ReferenceIdeal.RefSpec.out_is_G, weights_eq]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
